-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x1024x256 : Shape := ⟨3, ![8, 1024, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8x2048x256 .f32) (main_arg1 : FVec F S8x1024x256 .f32) (main_arg2 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8x2048x256 : Shape := ⟨3, ![8, 2048, 256]⟩
abbrev S8x1024x256 : Shape := ⟨3, ![8, 1024, 256]⟩
abbrev S256x256 : Shape := ⟨2, ![256, 256]⟩
abbrev S8x2048x1024 : Shape := ⟨3, ![8, 2048, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S8x1024x256, .f32⟩
  | .hbm, ⟨2, _⟩ => ⟨S256x256, .f32⟩
  | .hbm, ⟨3, _⟩ => ⟨S8x2048x256, .f32⟩
  | .hbm, ⟨4, _⟩ => ⟨S8x2048x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S256x256_S256x256_0_0 : ∀ a, (![0, 0] : Fin 2 → Nat) a + S256x256.size a ≤ S256x256.size a
  h_S256x256 : 0 < S256x256.numel
  shapeCasts_S1024x256_S1x1024x256 : S1024x256.ShapeCasts S1x1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x2048x256.size a
  hwx0_0 : ∀ i : grid0.Coords, EltTy.bits .f32 = 32 ∨ (Rect.block (s := S8x2048x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x256.size a
  hwx0_1 : ∀ i : grid0.Coords, EltTy.bits .f32 = 32 ∨ (Rect.block (s := S8x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x2048x256.size a
  hwx0_3 : ∀ i : grid0.Coords, EltTy.bits .f32 = 32 ∨ (Rect.block (s := S8x2048x256) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x2048x1024.size a
  hwx0_4 : ∀ i : grid0.Coords, EltTy.bits .f32 = 32 ∨ (Rect.block (s := S8x2048x1024) S1x1024x1024.size (cc0_transform_4 i) (hinb0_4 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x1024x256 : Shape := ⟨3, ![8, 1024, 256]⟩
abbrev S256x256 : Shape := ⟨2, ![256, 256]⟩
abbrev S_ : Shape := ⟨0, ![]⟩
abbrev S8x2048x1024 : Shape := ⟨3, ![8, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x1024x256, .f32⟩
  | .hbm, ⟨2, _⟩ => ⟨S256x256, .f32⟩
  | .hbm, ⟨3, _⟩ => ⟨S8x2048x256, .f32⟩
  | .hbm, ⟨4, _⟩ => ⟨S_, .f32⟩
  | .hbm, ⟨5, _⟩ => ⟨S8x2048x256, .f32⟩
  | .hbm, ⟨6, _⟩ => ⟨S8x2048x256, .f32⟩
  | .hbm, ⟨7, _⟩ => ⟨S8x2048x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8x2048x256 : S_.BroadcastsInDim S8x2048x256 (![] : Fin 0 → Fin S8x2048x256.rank)
  dot_S8x2048x256_S256x256_S8x2048x256_2_1_01_0_n_n_wf : DotDims.WF S8x2048x256 S256x256 S8x2048x256 [2] [1] [0, 1] [0] [] []
  dot_S8x2048x256_S8x1024x256_S8x2048x1024_2_2_1_1_0_0_wf : DotDims.WF S8x2048x256 S8x1024x256 S8x2048x1024 [2] [2] [1] [1] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x1024x256_S8x2048x1024_2_2_1_1_0_0 : DotDims S8x2048x256 S8x1024x256 S8x2048x1024 where
  lhsContracting := [2]
  rhsContracting := [2]
  lhsNonContracting := [1]
  rhsNonContracting := [1]
  lhsBatch := [0]
  rhsBatch := [0]
  wf := dot_S8x2048x256_S8x1024x256_S8x2048x1024_2_2_1_1_0_0_wf

class Facts : Prop extends Facts₀ where

variable [Facts]
-- ==== Proof.Pieces.lean ====
/-
  What one run of the body leaves behind, as values of the blocks it was given.

  The body loads its three input blocks whole — a row block of x as [1,1024,256], the batch's rows of mem as
  [1,1024,256], and W as [256,256] — and makes three whole stores: the key block, the val block, and (only when the
  point is the first of its batch) the copy of mem's rows in the scratch it keeps for the batch's later point. Every
  store covers its buffer from offset zero, so what each buffer holds afterwards is exactly the stored value, and every
  load reads a buffer whole. In the first point of a batch the val product reads the scratch AFTER the copy was stored
  into it, so it reads the copy; in a later point it reads what the earlier point left there.
-/
import proofs.«137754_j13563506721326_2_alg».proof.Proof.Gen.KernelIdeal.Frame
import Idealize.ShloMosaic.Lib.Pipeline.Value
import Idealize.ShloMosaic.Lib.Tactic

noncomputable section

namespace Cert.Bridge

open Cert.KernelIdeal Cert.KernelIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## A batch's first point: the scratch is refilled, then read -/

/-- The scratch after a batch's first point: the point's block of mem, re-laid as a matrix. -/
theorem scratch_first (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x1024x256 .f32) (harg5 : arg5.IsWhole) (arg6 : Memref sig .tc .vmem S1x1024x1024 .f32) (harg6 : arg6.IsWhole) (arg7 : Memref sig .tc .vmem S1024x256 .bf16) (harg7 : arg7.IsWhole) (hc0 : cond0_0 i) (x0 : Vec F S1x1024x256 .f32) (x1 : Vec F S1x1024x256 .f32) (x2 : Vec F S256x256 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero (S := S1024x256) zeros2]
  simp only [View.readAt_eq_ld, harg3.read_unread, View.ld_unit_zero (S := S1x1024x256) zeros3]

/-- The key block after a batch's first point: the body's key value of the x block and W. -/
theorem key_first (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x1024x256 .f32) (harg5 : arg5.IsWhole) (arg6 : Memref sig .tc .vmem S1x1024x1024 .f32) (harg6 : arg6.IsWhole) (arg7 : Memref sig .tc .vmem S1024x256 .bf16) (harg7 : arg7.IsWhole) (hc0 : cond0_0 i) (x0 : Vec F S1x1024x256 .f32) (x1 : Vec F S1x1024x256 .f32) (x2 : Vec F S256x256 .f32) :
    out0_A_3 c i arg2 harg2 arg3 harg3 arg4 harg4 arg5 harg5 arg6 harg6 arg7 harg7 hc0 x0 x1 x2 = k0_pay3 x0 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero (S := S1x1024x256) zeros3]
  simp only [View.readAt_eq_ld, harg2.read_unread, harg4.read_unread, View.ld_unit_zero (S := S1x1024x256) zeros3,
    View.ld_unit_zero (S := S256x256) zeros2]

/-- The val block after a batch's first point: the body's val value of the x block, W, and the copy of mem's rows
    the point has just stored in the scratch. -/
theorem val_first (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x1024x256 .f32) (harg5 : arg5.IsWhole) (arg6 : Memref sig .tc .vmem S1x1024x1024 .f32) (harg6 : arg6.IsWhole) (arg7 : Memref sig .tc .vmem S1024x256 .bf16) (harg7 : arg7.IsWhole) (hc0 : cond0_0 i) (x0 : Vec F S1x1024x256 .f32) (x1 : Vec F S1x1024x256 .f32) (x2 : Vec F S256x256 .f32) :
    out0_A_4 c i arg2 harg2 arg3 harg3 arg4 harg4 arg5 harg5 arg6 harg6 arg7 harg7 hc0 x0 x1 x2 = k0_pay4 x0 x2 (k0_pay1 x1) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero (S := S1x1024x1024) zeros3, View.readCov_unit_zero (S := S1024x256) _ zeros2]
  simp only [View.readAt_eq_ld, harg2.read_unread, harg3.read_unread, harg4.read_unread,
    View.ld_unit_zero (S := S1x1024x256) zeros3, View.ld_unit_zero (S := S256x256) zeros2]

/-! ## A later point of the batch: the scratch is only read -/

/-- The key block after a later point: again the body's key value of the x block and W. -/
theorem key_later (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x1024x256 .f32) (harg5 : arg5.IsWhole) (arg6 : Memref sig .tc .vmem S1x1024x1024 .f32) (harg6 : arg6.IsWhole) (arg7 : Memref sig .tc .vmem S1024x256 .bf16) (harg7 : arg7.IsWhole) (hc0 : ¬cond0_0 i) (x0 : Vec F S1x1024x256 .f32) (x1 : Vec F S1x1024x256 .f32) (x2 : Vec F S256x256 .f32) (xs0 : Vec F S1024x256 .bf16) :
    out0_B_3 c i arg2 harg2 arg3 harg3 arg4 harg4 arg5 harg5 arg6 harg6 arg7 harg7 hc0 x0 x1 x2 xs0 = k0_pay3 x0 x2 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  sl_unfold_words
  rw [View.canon_unit_zero (S := S1x1024x256) zeros3]
  simp only [View.readAt_eq_ld, harg2.read_unread, harg4.read_unread, View.ld_unit_zero (S := S1x1024x256) zeros3,
    View.ld_unit_zero (S := S256x256) zeros2]

/-- The val block after a later point: the body's val value of the x block, W, and what the scratch held. -/
theorem val_later (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x1024x256 .f32) (harg5 : arg5.IsWhole) (arg6 : Memref sig .tc .vmem S1x1024x1024 .f32) (harg6 : arg6.IsWhole) (arg7 : Memref sig .tc .vmem S1024x256 .bf16) (harg7 : arg7.IsWhole) (hc0 : ¬cond0_0 i) (x0 : Vec F S1x1024x256 .f32) (x1 : Vec F S1x1024x256 .f32) (x2 : Vec F S256x256 .f32) (xs0 : Vec F S1024x256 .bf16) :
    out0_B_4 c i arg2 harg2 arg3 harg3 arg4 harg4 arg5 harg5 arg6 harg6 arg7 harg7 hc0 x0 x1 x2 xs0 = k0_pay4 x0 x2 xs0 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  sl_unfold_words
  rw [View.canon_unit_zero (S := S1x1024x1024) zeros3]
  simp only [View.readAt_eq_ld, harg2.read_unread, harg4.read_unread, harg7.read_unread,
    View.ld_unit_zero (S := S1x1024x256) zeros3, View.ld_unit_zero (S := S256x256) zeros2,
    View.ld_unit_zero (S := S1024x256) zeros2]

end Cert.Bridge

end
-- ==== Proof.Blocks.lean ====
/-
  Where each block of each window sits in its array.

  The grid is 8 batches by 2 row blocks, walked batch by batch: point t works on batch t / 2 and on rows
  (t mod 2) · 1024 … + 1023 of that batch. At point t the x window holds rows (t mod 2) · 1024 + r of batch t / 2, the mem
  window all 1024 rows of batch t / 2 (the same block at both points of a batch), the W window all of W, and the key and val
  windows write back to the same batch and rows as the x window reads. A block's entry (0, r, j) is therefore the array's
  entry (t / 2, (t mod 2) · 1024 + r, j); every entry of the key array and of the val array lies in exactly the block of
  the point 2 · b + s / 1024.
-/
import proofs.«137754_j13563506721326_2_alg».proof.Proof.Gen.KernelIdeal.Frame.Runs
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block index of every window at every grid point (decided over the 16 points). -/
theorem block_indices : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

theorem point_lt (t : Fin cfg0.N) : t.val < 16 := lt_of_lt_of_eq t.isLt (show cfg0.N = 16 from N_0)

/-- The batch a grid point works on. -/
def bat (t : Fin cfg0.N) : Fin 8 := ⟨t.val / 2, by have := point_lt t; omega⟩

/-- Row `r` of a grid point's row block, as a row of the batch. -/
def row (t : Fin cfg0.N) (r : Fin 1024) : Fin 2048 := ⟨t.val % 2 * 1024 + r.val, by have := r.isLt; omega⟩

/-! ## The input blocks -/

/-- The x block at point t: entry (0, r, i) is x(batch, row, i). -/
theorem xblk_apply (c : Dev nD) (t : Fin cfg0.N) (u : Fin 1) (r : Fin 1024) (i : Fin 256) :
    (iblk m c 0 t : Vec F S1x1024x256 .f32) (ix3 u r i) = V m c main_arg0 (ix3 (bat t) (row t r) i) := by
  obtain ⟨e0, e1, e2, -⟩ := block_indices t
  unfold iblk
  rw [View.read_apply]
  show V m c main_arg0 (((cfg0.win 0).blk t).view.emb (ix3 u r i)) = _
  refine congrArg (V m c main_arg0) (funext fun a => Fin.ext ?_)
  match a with
  | ⟨0, _⟩ => show win0_0.index t (0 : Fin 3) * 1 + 1 * u.val = t.val / 2; have := u.isLt; omega
  | ⟨1, _⟩ => show win0_0.index t (1 : Fin 3) * 1024 + 1 * r.val = t.val % 2 * 1024 + r.val; omega
  | ⟨2, _⟩ => show win0_0.index t (2 : Fin 3) * 256 + 1 * i.val = i.val; omega

/-- The mem block at point t: entry (0, n, h) is mem(batch, n, h). -/
theorem memblk_apply (c : Dev nD) (t : Fin cfg0.N) (u : Fin 1) (n : Fin 1024) (h : Fin 256) :
    (iblk m c 1 t : Vec F S1x1024x256 .f32) (ix3 u n h) = V m c main_arg1 (ix3 (bat t) n h) := by
  obtain ⟨-, -, -, e0, e1, e2, -⟩ := block_indices t
  unfold iblk
  rw [View.read_apply]
  show V m c main_arg1 (((cfg0.win 1).blk t).view.emb (ix3 u n h)) = _
  refine congrArg (V m c main_arg1) (funext fun a => Fin.ext ?_)
  match a with
  | ⟨0, _⟩ => show win0_1.index t (0 : Fin 3) * 1 + 1 * u.val = t.val / 2; have := u.isLt; omega
  | ⟨1, _⟩ => show win0_1.index t (1 : Fin 3) * 1024 + 1 * n.val = n.val; omega
  | ⟨2, _⟩ => show win0_1.index t (2 : Fin 3) * 256 + 1 * h.val = h.val; omega

/-- The W block at any point is W. -/
theorem wblk_apply (c : Dev nD) (t : Fin cfg0.N) (h : Fin 256) (i : Fin 256) :
    (iblk m c 2 t : Vec F S256x256 .f32) (ix2 h i) = V m c main_arg2 (ix2 h i) := by
  obtain ⟨-, -, -, -, -, -, e0, e1, -⟩ := block_indices t
  unfold iblk
  rw [View.read_apply]
  show V m c main_arg2 (((cfg0.win 2).blk t).view.emb (ix2 h i)) = _
  refine congrArg (V m c main_arg2) (funext fun a => Fin.ext ?_)
  match a with
  | ⟨0, _⟩ => show win0_2.index t (0 : Fin 2) * 256 + 1 * h.val = h.val; omega
  | ⟨1, _⟩ => show win0_2.index t (1 : Fin 2) * 256 + 1 * i.val = i.val; omega

/-! ## The output blocks -/

/-- Entry y of the key block of point t is the key array's entry (batch, row of y, column of y). -/
theorem keyblk_emb (t : Fin cfg0.N) (y : S1x1024x256.Idx) :
    ((cfg0.win 3).blk t).view.emb y = ix3 (bat t) (row t (y 1)) (y 2) := by
  obtain ⟨-, -, -, -, -, -, -, -, e0, e1, e2, -⟩ := block_indices t
  refine funext fun a => Fin.ext ?_
  match a with
  | ⟨0, _⟩ => show win0_3.index t (0 : Fin 3) * 1 + 1 * (y 0).val = t.val / 2; have : (y 0).val < 1 := (y 0).isLt; omega
  | ⟨1, _⟩ => show win0_3.index t (1 : Fin 3) * 1024 + 1 * (y 1).val = t.val % 2 * 1024 + (y 1).val; omega
  | ⟨2, _⟩ => show win0_3.index t (2 : Fin 3) * 256 + 1 * (y 2).val = (y 2).val; omega

/-- Entry y of the val block of point t is the val array's entry (batch, row of y, column of y). -/
theorem valblk_emb (t : Fin cfg0.N) (y : S1x1024x1024.Idx) :
    ((cfg0.win 4).blk t).view.emb y = ix3 (bat t) (row t (y 1)) (y 2) := by
  obtain ⟨-, -, -, -, -, -, -, -, -, -, -, e0, e1, e2⟩ := block_indices t
  refine funext fun a => Fin.ext ?_
  match a with
  | ⟨0, _⟩ => show win0_4.index t (0 : Fin 3) * 1 + 1 * (y 0).val = t.val / 2; have : (y 0).val < 1 := (y 0).isLt; omega
  | ⟨1, _⟩ => show win0_4.index t (1 : Fin 3) * 1024 + 1 * (y 1).val = t.val % 2 * 1024 + (y 1).val; omega
  | ⟨2, _⟩ => show win0_4.index t (2 : Fin 3) * 1024 + 1 * (y 2).val = (y 2).val; omega

/-! ## Every entry of a result array is in some point's block -/

/-- An index of the key array is in point t's block iff each coordinate is in the block's range on its axis. -/
theorem mem_keyblk (t : Fin cfg0.N) (i : S8x2048x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v0_0).slice (win0_3.rect t)).set ↔ _
  rw [View.set_slice_whole, Rect.mem_set_unit]
  exact Iff.rfl

/-- An index of the val array is in point t's block iff each coordinate is in the block's range on its axis. -/
theorem mem_valblk (t : Fin cfg0.N) (i : S8x2048x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v0_1).slice (win0_4.rect t)).set ↔ _
  rw [View.set_slice_whole, Rect.mem_set_unit]
  exact Iff.rfl

/-- The key array's entry (b, s, h) lies in the block of point 2·b + s / 1024, which is written back. -/
theorem key_cover (i : S8x2048x256.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 256 := (i 2).isLt
  obtain ⟨t, ht⟩ : ∃ t : Fin cfg0.N, t.val = 2 * (i 0).val + (i 1).val / 1024 :=
    ⟨⟨2 * (i 0).val + (i 1).val / 1024, by rw [show cfg0.N = 16 from N_0]; omega⟩, rfl⟩
  obtain ⟨-, -, -, -, -, -, -, -, e0, e1, e2, -⟩ := block_indices t
  refine ⟨t, flush0_3 t, ?_⟩
  rw [mem_keyblk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- The val array's entry (b, s, n) lies in the block of point 2·b + s / 1024, which is written back. -/
theorem val_cover (i : S8x2048x1024.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 1024 := (i 2).isLt
  obtain ⟨t, ht⟩ : ∃ t : Fin cfg0.N, t.val = 2 * (i 0).val + (i 1).val / 1024 :=
    ⟨⟨2 * (i 0).val + (i 1).val / 1024, by rw [show cfg0.N = 16 from N_0]; omega⟩, rfl⟩
  obtain ⟨-, -, -, -, -, -, -, -, -, -, -, e0, e1, e2⟩ := block_indices t
  refine ⟨t, flush0_4 t, ?_⟩
  rw [mem_valblk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

end Cert.Bridge

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.Body.lean ====
/-
  The body's arithmetic, read one entry at a time at the exact values.

  With the x block as a [1,1024,256] array, W as [256,256] and the scratch as a [1024,256] matrix, the body forms
  first key(r, h) = max(Σ_i x(0, r, i) · W(h, i), 0) — a product contracting the two SECOND axes into the zero splat,
  then the ramp against the zero word —, stores it as a [1,1024,256] block, and then
  val(r, n) = Σ_h key(r, h) · scratch(n, h), again contracting the two second axes, stored as [1,1024,1024]. The changes
  of float format between the steps are the identity at the exact values, and the casts between [1,a,b] and [a,b] keep
  the row-major position. The copy kept in the scratch is the mem block with its leading unit axis dropped.
-/
import proofs.«137754_j13563506721326_2_alg».proof.Proof.Gen.KernelIdeal.Skeleton
import proofs.«137754_j13563506721326_2_alg».proof.Proof.LibRowsByRows
import Idealize.ShloMosaic.Lib.ValueLayout
import Idealize.ShloMosaic.Lib.Pipeline.Value
import Idealize.ShloMosaic.PureOps.Ideal.Laws

noncomputable section

namespace Cert.Bridge

open Cert.KernelIdeal Cert.KernelIdeal.Gen Idealize.ShloMosaic Idealize.ShloMosaic.ValueIdx

/-- The copy the scratch keeps: entry (n, h) is the mem block's entry (0, n, h). -/
theorem copy_apply (x1 : Vec Ideal S1x1024x256 .f32) (n : Fin 1024) (h : Fin 256) :
    k0_pay1 (F := Ideal) x1 (ix2 n h) = x1 (ix3 (0 : Fin 1) n h) := by
  unfold k0_pay1
  refine (congrFun (shapeCast_self _ _) _).trans ?_
  exact shapeCast_1ab_ab_apply x1 _ n h

/-- The key matrix: entry (r, h) is row r of the x block against row h of W, then the ramp. -/
theorem keyMat_apply (x0 : Vec Ideal S1x1024x256 .f32) (x2 : Vec Ideal S256x256 .f32) (r : Fin 1024) (h : Fin 256) :
    k0_pay2 (F := Ideal) x0 x2 (ix2 r h)
      = max (∑ i : Fin 256, x0 (ix3 (0 : Fin 1) r i) * x2 (ix2 h i)) (Ideal.ofBits .f32 0x00000000#32) := by
  unfold k0_pay2
  refine congrArg (fun z => max z (Ideal.ofBits .f32 0x00000000#32)) ?_
  refine (Cert.RowsByRows.matmul_rowsByRows_apply dot_S1024x256_S256x256_S1024x256_1_1_0_0_n_n_wf none _ _ r h).trans ?_
  refine Finset.sum_congr rfl fun i _ => ?_
  exact congrArg (· * x2 (ix2 h i)) (shapeCast_1ab_ab_apply x0 _ r i)

/-- The stored key block is the key matrix with a leading unit axis. -/
theorem keyBlk_apply (x0 : Vec Ideal S1x1024x256 .f32) (x2 : Vec Ideal S256x256 .f32) (u : Fin 1) (r : Fin 1024) (h : Fin 256) :
    k0_pay3 (F := Ideal) x0 x2 (ix3 u r h) = k0_pay2 (F := Ideal) x0 x2 (ix2 r h) := by
  unfold k0_pay3
  exact shapeCast_ab_1ab_apply _ _ u r h

/-- The stored val block: entry (0, r, n) is row r of the key matrix against row n of the scratch. -/
theorem valBlk_apply (x0 : Vec Ideal S1x1024x256 .f32) (x2 : Vec Ideal S256x256 .f32) (xs : Vec Ideal S1024x256 .bf16)
    (u : Fin 1) (r : Fin 1024) (n : Fin 1024) :
    k0_pay4 (F := Ideal) x0 x2 xs (ix3 u r n) = ∑ h : Fin 256, k0_pay2 (F := Ideal) x0 x2 (ix2 r h) * xs (ix2 n h) := by
  unfold k0_pay4
  refine (shapeCast_ab_1ab_apply _ _ u r n).trans ?_
  exact Cert.RowsByRows.matmul_rowsByRows_apply dot_S1024x256_S1024x256_S1024x1024_1_1_0_0_n_n_wf none _ _ r n

end Cert.Bridge

end
-- ==== Proof.Spec.lean ====
/-
  The two results as functions of the three argument arrays, entry by entry, over the extended reals.

  For x of shape [8, 2048, 256], mem of shape [8, 1024, 256] and W of shape [256, 256]:

    key(b, s, h) = max( Σ_i x(b, s, i) · W(h, i), 0 )          a row of x against every row of W, then the ramp
    val(b, s, n) = Σ_h key(b, s, h) · mem(b, n, h)              that key row against every row of the batch's mem

  The zero of the ramp is kept as the f32 zero pattern: both programs write that same word, so it is never evaluated.
  Nothing here mentions a program.
-/
import Idealize.ShloMosaic.PureOps.Ideal
import Idealize.ShloMosaic.Lib.ValueIdx

noncomputable section

namespace Cert.Bridge

open Idealize.ShloMosaic Idealize.ShloMosaic.ValueIdx

/-- The three argument arrays' index types, and the two results'. -/
abbrev XIdx : Type := (⟨3, ![8, 2048, 256]⟩ : Shape).Idx
abbrev MIdx : Type := (⟨3, ![8, 1024, 256]⟩ : Shape).Idx
abbrev WIdx : Type := (⟨2, ![256, 256]⟩ : Shape).Idx
abbrev VIdx : Type := (⟨3, ![8, 2048, 1024]⟩ : Shape).Idx

/-- One key entry: row `s` of batch `b` of x against row `h` of W, then the ramp. -/
def keyAt (X : XIdx → EReal) (W : WIdx → EReal) (b : Fin 8) (s : Fin 2048) (h : Fin 256) : EReal :=
  max (∑ i : Fin 256, X (ix3 b s i) * W (ix2 h i)) (Ideal.ofBits .f32 0x00000000#32)

/-- One val entry: the key row (b, s) against row `n` of batch `b` of mem. -/
def valAt (X : XIdx → EReal) (M : MIdx → EReal) (W : WIdx → EReal) (b : Fin 8) (s : Fin 2048) (n : Fin 1024) : EReal :=
  ∑ h : Fin 256, keyAt X W b s h * M (ix3 b n h)

/-- The key array. -/
def keyArr (X : XIdx → EReal) (W : WIdx → EReal) : XIdx → EReal :=
  fun j => keyAt X W (j 0) (j 1) (j 2)

/-- The val array. -/
def valArr (X : XIdx → EReal) (M : MIdx → EReal) (W : WIdx → EReal) : VIdx → EReal :=
  fun j => valAt X M W (j 0) (j 1) (j 2)

end Cert.Bridge

end
-- ==== Proof.Entries.lean ====
/-
  One entry of a stored block against the specification, for blocks given by what they hold.

  If the x block's entry (0, r, i) is x(b, o(r), i) for a batch b and a placement o of the block's rows, and the W block
  is W, then the stored key block's entry (0, r, h) is key(b, o(r), h). If moreover the scratch matrix's entry (n, h) is
  mem(b, n, h), the stored val block's entry (0, r, n) is val(b, o(r), n). Only the blocks' contents enter, not where
  they came from.
-/
import proofs.«137754_j13563506721326_2_alg».proof.Proof.Body
import proofs.«137754_j13563506721326_2_alg».proof.Proof.Spec

noncomputable section

namespace Cert.Bridge

open Cert.KernelIdeal Cert.KernelIdeal.Gen Idealize.ShloMosaic Idealize.ShloMosaic.ValueIdx

/-- The key matrix of blocks that hold x's rows o(·) of batch b, and W. -/
theorem keyMat_spec (X : XIdx → EReal) (W : WIdx → EReal)
    (x0 : Vec Ideal S1x1024x256 .f32) (x2 : Vec Ideal S256x256 .f32) (b : Fin 8) (o : Fin 1024 → Fin 2048)
    (hx : ∀ (u : Fin 1) (r : Fin 1024) (i : Fin 256), x0 (ix3 u r i) = X (ix3 b (o r) i))
    (hw : ∀ (h : Fin 256) (i : Fin 256), x2 (ix2 h i) = W (ix2 h i)) (r : Fin 1024) (h : Fin 256) :
    k0_pay2 (F := Ideal) x0 x2 (ix2 r h) = keyAt X W b (o r) h := by
  rw [keyMat_apply]
  unfold keyAt
  simp only [hx, hw]

/-- The stored key block, entry by entry. -/
theorem keyBlk_spec (X : XIdx → EReal) (W : WIdx → EReal)
    (x0 : Vec Ideal S1x1024x256 .f32) (x2 : Vec Ideal S256x256 .f32) (b : Fin 8) (o : Fin 1024 → Fin 2048)
    (hx : ∀ (u : Fin 1) (r : Fin 1024) (i : Fin 256), x0 (ix3 u r i) = X (ix3 b (o r) i))
    (hw : ∀ (h : Fin 256) (i : Fin 256), x2 (ix2 h i) = W (ix2 h i)) (y : S1x1024x256.Idx) :
    k0_pay3 (F := Ideal) x0 x2 y = keyAt X W b (o (y 1)) (y 2) := by
  obtain ⟨u, r, h, rfl⟩ : ∃ (u : Fin 1) (r : Fin 1024) (h : Fin 256), y = ix3 u r h := ⟨y 0, y 1, y 2, eq_ix3 y⟩
  show k0_pay3 (F := Ideal) x0 x2 (ix3 u r h) = keyAt X W b (o r) h
  rw [keyBlk_apply, keyMat_spec X W x0 x2 b o hx hw]

/-- The stored val block, entry by entry, when the scratch holds mem's rows of batch b. -/
theorem valBlk_spec (X : XIdx → EReal) (M : MIdx → EReal) (W : WIdx → EReal)
    (x0 : Vec Ideal S1x1024x256 .f32) (x2 : Vec Ideal S256x256 .f32) (xs : Vec Ideal S1024x256 .bf16)
    (b : Fin 8) (o : Fin 1024 → Fin 2048)
    (hx : ∀ (u : Fin 1) (r : Fin 1024) (i : Fin 256), x0 (ix3 u r i) = X (ix3 b (o r) i))
    (hw : ∀ (h : Fin 256) (i : Fin 256), x2 (ix2 h i) = W (ix2 h i))
    (hs : ∀ (n : Fin 1024) (h : Fin 256), xs (ix2 n h) = M (ix3 b n h)) (y : S1x1024x1024.Idx) :
    k0_pay4 (F := Ideal) x0 x2 xs y = valAt X M W b (o (y 1)) (y 2) := by
  obtain ⟨u, r, n, rfl⟩ : ∃ (u : Fin 1) (r : Fin 1024) (n : Fin 1024), y = ix3 u r n := ⟨y 0, y 1, y 2, eq_ix3 y⟩
  show k0_pay4 (F := Ideal) x0 x2 xs (ix3 u r n) = valAt X M W b (o r) n
  rw [valBlk_apply]
  unfold valAt
  refine Finset.sum_congr rfl fun h _ => ?_
  rw [keyMat_spec X W x0 x2 b o hx hw, hs]

end Cert.Bridge

end
-- ==== Proof.KernelValue.lean ====
/-
  The kernel's two result arrays after its run are the specified key and val arrays.

  Three facts, in order. (1) After any grid point the scratch holds mem's rows of that point's batch: a batch's first
  point stores them, and its second point, which works on the same batch, leaves the scratch alone — by induction on
  the point. (2) So what every point writes back is the block of the specified array at the point's batch and rows:
  the key block from the x block and W alone; the val block from those and the scratch, which at a batch's first point
  is the copy just made and at its second point is what the first point left. (3) The blocks written back cover both
  result arrays, so each array ends as the specified one.
-/
import proofs.«137754_j13563506721326_2_alg».proof.Proof.Gen.KernelIdeal.Value
import proofs.«137754_j13563506721326_2_alg».proof.Proof.Pieces
import proofs.«137754_j13563506721326_2_alg».proof.Proof.Blocks
import proofs.«137754_j13563506721326_2_alg».proof.Proof.Entries

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The scratch after each point -/

/-- The copy a batch's first point makes holds mem's rows of the point's batch. -/
theorem copy_holds (c : Dev nD) (t : Fin cfg0.N) (n : Fin 1024) (h : Fin 256) :
    k0_pay1 (F := Ideal) (iblk m c 1 t) (ix2 n h) = V m c main_arg1 (ix3 (bat t) n h) :=
  (copy_apply (iblk m c 1 t) n h).trans (memblk_apply m c t 0 n h)

/-- After a batch's first point the scratch holds mem's rows of that batch: the point has just stored them. -/
theorem scratch_after_first (c : Dev nD) (t : Fin cfg0.N) (h0 : t.val % 2 = 0) (n : Fin 1024) (h : Fin 256) :
    (outsAt0 m c t.val t.isLt).2.2 (ix2 n h) = V m c main_arg1 (ix3 (bat t) n h) := by
  rw [outsAt0_A m c t h0]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)) (ix2 n h)).trans ?_
  exact copy_holds m c t n h

/-- After ANY point the scratch holds mem's rows of that point's batch — by induction on the point: a batch's second
    point leaves the scratch as its first point left it, and works on the same batch. -/
theorem scratch_holds (c : Dev nD) : ∀ (k : ℕ) (t : Fin cfg0.N), t.val = k → ∀ (n : Fin 1024) (h : Fin 256),
    (outsAt0 m c t.val t.isLt).2.2 (ix2 n h) = V m c main_arg1 (ix3 (bat t) n h) := by
  intro k
  induction k with
  | zero =>
    intro t ht n h
    exact scratch_after_first m c t (by omega) n h
  | succ k ih =>
    intro t ht n h
    by_cases h0 : t.val % 2 = 0
    · exact scratch_after_first m c t h0 n h
    · rw [outsAt0_B m c t h0]
      dsimp only
      show (outsAt0 m c (t.val - 1) (Nat.lt_of_le_of_lt (Nat.sub_le _ _) t.isLt)).2.2 (ix2 n h) = _
      refine (ih ⟨t.val - 1, Nat.lt_of_le_of_lt (Nat.sub_le _ _) t.isLt⟩ (by show t.val - 1 = k; omega) n h).trans ?_
      have eb : bat ⟨t.val - 1, Nat.lt_of_le_of_lt (Nat.sub_le _ _) t.isLt⟩ = bat t :=
        Fin.ext (by show (t.val - 1) / 2 = t.val / 2; omega)
      rw [eb]

/-! ## What each point writes back -/

/-- Point t writes back the block of the specified key array at its batch and rows. -/
theorem key_flushed (c : Dev nD) (t : Fin cfg0.N) :
    (dats m 0 c).flushed 3 t
      = ((cfg0.win 3).blk t).view.read (Elt Ideal) (keyArr (V m c main_arg0) (V m c main_arg2)) := by
  have hspec : ∀ y : S1x1024x256.Idx, k0_pay3 (F := Ideal) (iblk m c 0 t) (iblk m c 2 t) y
      = keyArr (V m c main_arg0) (V m c main_arg2) (((cfg0.win 3).blk t).view.emb y) := fun y =>
    (keyBlk_spec (V m c main_arg0) (V m c main_arg2) (iblk m c 0 t) (iblk m c 2 t) (bat t) (row t)
      (fun u r i => xblk_apply m c t u r i) (fun h i => wblk_apply m c t h i) y).trans
      (congrArg (keyArr (V m c main_arg0) (V m c main_arg2)) (keyblk_emb t y)).symm
  by_cases h0 : t.val % 2 = 0
  · rw [Cert.KernelIdeal.Value.flushed3_A m c t h0]
    funext y
    show out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) y = _
    refine (congrFun (key_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)) y).trans ?_
    exact hspec y
  · rw [Cert.KernelIdeal.Value.flushed3_B m c t h0]
    funext y
    show out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2 y = _
    refine (congrFun (key_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2) y).trans ?_
    exact hspec y

/-- Point t writes back the block of the specified val array at its batch and rows. -/
theorem val_flushed (c : Dev nD) (t : Fin cfg0.N) :
    (dats m 0 c).flushed 4 t
      = ((cfg0.win 4).blk t).view.read (Elt Ideal) (valArr (V m c main_arg0) (V m c main_arg1) (V m c main_arg2)) := by
  have hspec : ∀ (xs : Vec Ideal S1024x256 .bf16) (hs : ∀ (n : Fin 1024) (h : Fin 256), xs (ix2 n h) = V m c main_arg1 (ix3 (bat t) n h))
      (y : S1x1024x1024.Idx), k0_pay4 (F := Ideal) (iblk m c 0 t) (iblk m c 2 t) xs y
      = valArr (V m c main_arg0) (V m c main_arg1) (V m c main_arg2) (((cfg0.win 4).blk t).view.emb y) := fun xs hs y =>
    (valBlk_spec (V m c main_arg0) (V m c main_arg1) (V m c main_arg2) (iblk m c 0 t) (iblk m c 2 t) xs (bat t) (row t)
      (fun u r i => xblk_apply m c t u r i) (fun h i => wblk_apply m c t h i) hs y).trans
      (congrArg (valArr (V m c main_arg0) (V m c main_arg1) (V m c main_arg2)) (valblk_emb t y)).symm
  by_cases h0 : t.val % 2 = 0
  · rw [Cert.KernelIdeal.Value.flushed4_A m c t h0]
    funext y
    show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) y = _
    refine (congrFun (val_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)) y).trans ?_
    exact hspec (k0_pay1 (F := Ideal) (iblk m c 1 t)) (fun n h => copy_holds m c t n h) y
  · rw [Cert.KernelIdeal.Value.flushed4_B m c t h0]
    funext y
    show out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2 y = _
    refine (congrFun (val_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2) y).trans ?_
    refine hspec _ (fun n h => ?_) y
    refine (scratch_holds m c (t.val - 1) ⟨t.val - 1, Nat.lt_of_le_of_lt (Nat.sub_le _ _) t.isLt⟩ rfl n h).trans ?_
    have eb : bat ⟨t.val - 1, Nat.lt_of_le_of_lt (Nat.sub_le _ _) t.isLt⟩ = bat t :=
      Fin.ext (by show (t.val - 1) / 2 = t.val / 2; omega)
    rw [eb]

/-! ## The arrays after the run -/

/-- The key array ends as specified. -/
theorem key_final (c : Dev nD) :
    (dats m 0 c).arrAt 3 cfg0.N = keyArr (V m c main_arg0) (V m c main_arg2) :=
  (dats m 0 c).arrAt_eq_of_cover 3 (keyArr (V m c main_arg0) (V m c main_arg2)) (fun t _ => key_flushed m c t) key_cover

/-- The val array ends as specified. -/
theorem val_final (c : Dev nD) :
    (dats m 0 c).arrAt 4 cfg0.N = valArr (V m c main_arg0) (V m c main_arg1) (V m c main_arg2) :=
  (dats m 0 c).arrAt_eq_of_cover 4 (valArr (V m c main_arg0) (V m c main_arg1) (V m c main_arg2))
    (fun t _ => val_flushed m c t) val_cover

/-- The kernel's run: both results at the specified arrays of the launch contents, the arguments unchanged. -/
theorem kernel_run : θ_run defs (onTc (τ := τ) (main (F := Ideal))) ⟨m, fun _ => 0, ρ⟩ fun r => ∀ c : Dev nD,
      r.2.mem ((c : Thread nD τ).loc main_v0_0)
        = keyArr (m ((c : Thread nD τ).loc main_arg0)) (m ((c : Thread nD τ).loc main_arg2))
      ∧ r.2.mem ((c : Thread nD τ).loc main_v0_1)
        = valArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (key_final m c), (h c).2.1.trans (val_final m c), (h c).2.2⟩)
    (Cert.KernelIdeal.Value.run_blocks m ρ)

end Cert.Bridge

end
-- ==== Proof.RefSpec.lean ====
/-
  The reference computes the two specified arrays.

  Its first product contracts x's last axis with W's second axis and keeps (b, s) and W's row h: entry (b, s, h) is
  Σ_i x(b, s, i) · W(h, i); the ramp is a maximum with a broadcast zero word. Its second product is batched over b and
  contracts the key's last axis with mem's last axis: entry (b, s, n) is Σ_h key(b, s, h) · mem(b, n, h). These are the
  specification's two formulas, once the operand indices of each product are written by their coordinates.
-/
import proofs.«137754_j13563506721326_2_alg».proof.Proof.Gen.ReferenceIdeal.Read
import proofs.«137754_j13563506721326_2_alg».proof.Proof.Spec

noncomputable section

namespace Cert.Bridge

open Cert.ReferenceIdeal Cert.ReferenceIdeal.Read Idealize.ShloMosaic Idealize.ShloMosaic.ValueIdx

/-- The reference's first result is the key array. -/
theorem ref_key (X : XIdx → EReal) (W : WIdx → EReal) : val_main_v1 (F := Ideal) X W = keyArr X W := by
  funext i
  rw [val_main_v1_apply, val_main_v0_apply, val_main_call0_v0_apply, val_main_call0_cst_apply]
  have el : ∀ k : Fin 256, lidx_main_v0 i k = ix3 (i 0) (i 1) k := fun k => funext fun a => by
    match a with
    | ⟨0, _⟩ => rfl
    | ⟨1, _⟩ => rfl
    | ⟨2, _⟩ => rfl
  have er : ∀ k : Fin 256, ridx_main_v0 i k = ix2 (i 2) k := fun k => funext fun a => by
    match a with
    | ⟨0, _⟩ => rfl
    | ⟨1, _⟩ => rfl
  simp only [el, er]
  rfl

/-- The reference's second result is the val array. -/
theorem ref_val (X : XIdx → EReal) (M : MIdx → EReal) (W : WIdx → EReal) :
    val_main_v2 (F := Ideal) X M W = valArr X M W := by
  funext i
  rw [val_main_v2_apply, ref_key]
  have er : ∀ k : Fin 256, ridx_main_v2 i k = ix3 (i 0) (i 2) k := fun k => funext fun a => by
    match a with
    | ⟨0, _⟩ => rfl
    | ⟨1, _⟩ => rfl
    | ⟨2, _⟩ => rfl
  simp only [er]
  rfl

end Cert.Bridge

end
-- ==== Proof.lean ====
/-
  Two fused products against their plain statement.

  The kernel takes x [8, 2048, 256], mem [8, 1024, 256] and W [256, 256]. Over a grid of 8 batches by 2 blocks of 1024
  rows it forms, per point, key = max(x_blk · Wᵀ, 0) and val = key · mem_bᵀ, both products contracting the operands'
  second axes into a zero accumulator; mem_b is converted once, at the first point of each batch, into a scratch that
  the batch's second point reads again. The reference forms key(b,s,h) = max(Σ_i x(b,s,i)·W(h,i), 0) and
  val(b,s,n) = Σ_h key(b,s,h)·mem(b,n,h) with two whole contractions.

  At the exact values a change of float format is the identity and a product into the zero accumulator is the plain
  sum over the contracted axis, so both programs compute the same two sums, term by term and in the same order: no law
  of the extended reals beyond rewriting equals is used, and the finiteness of the inputs is never needed. What has to
  be shown is bookkeeping: that the scratch holds the right batch's rows at both points of a batch, that each block
  sits where the specification says, and that the blocks written back cover both result arrays.

  The frames of the two kernel programs and both programs' runs are the generated ones; the idealization rewrote
  nothing, so the kernel's idealization claim is trivial.
-/
import proofs.«137754_j13563506721326_2_alg».proof.Defs
import proofs.«137754_j13563506721326_2_alg».proof.Proof.Gen.Kernel
import proofs.«137754_j13563506721326_2_alg».proof.Proof.Gen.Kernel.Skeleton
import proofs.«137754_j13563506721326_2_alg».proof.Proof.Gen.Kernel.Launch
import proofs.«137754_j13563506721326_2_alg».proof.Proof.Gen.Kernel.Points
import proofs.«137754_j13563506721326_2_alg».proof.Proof.Gen.Kernel.Frame
import proofs.«137754_j13563506721326_2_alg».proof.Proof.Gen.KernelIdeal
import proofs.«137754_j13563506721326_2_alg».proof.Proof.Gen.KernelIdeal.Skeleton
import proofs.«137754_j13563506721326_2_alg».proof.Proof.Gen.KernelIdeal.Launch
import proofs.«137754_j13563506721326_2_alg».proof.Proof.Gen.KernelIdeal.Points
import proofs.«137754_j13563506721326_2_alg».proof.Proof.Gen.KernelIdeal.Frame
import proofs.«137754_j13563506721326_2_alg».proof.Proof.Gen.KernelIdeal.Value
import proofs.«137754_j13563506721326_2_alg».proof.Proof.Gen.ReferenceIdeal
import proofs.«137754_j13563506721326_2_alg».proof.Proof.Gen.ReferenceIdeal.Run
import proofs.«137754_j13563506721326_2_alg».proof.Proof.Gen.ReferenceIdeal.Read
import proofs.«137754_j13563506721326_2_alg».proof.Proof.Gen.Pre_finite_inputs
import proofs.«137754_j13563506721326_2_alg».proof.Proof.KernelValue
import proofs.«137754_j13563506721326_2_alg».proof.Proof.RefSpec
import Idealize.ShloMosaic.Adequacy
import Idealize.ShloMosaic.Init

noncomputable section

namespace Cert.Proof

open Idealize.ShloMosaic Idealize.ShloMosaic.TcCoe Idealize.SL.Sem

/-- The reference runs and leaves its arguments alone: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on x, mem and W, the kernel's key and val arrays and the reference's two results are the
    specified key and val arrays of those arguments. -/
theorem algebraic : Cert.algebraic_KernelIdeal_ReferenceIdeal := by
  intro m ρ m' ρ' _ hagree
  refine ⟨_, _, Cert.Bridge.kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v1_eq, Cert.Bridge.ref_key, (hagree c).1, (hagree c).2.2]
  · rw [(h c).2.1, Cert.ReferenceIdeal.Read.val_main_v2_eq, Cert.Bridge.ref_val, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
